-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S128x1 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) (main_arg10 : IVec S2x1600000 32) (main_arg11 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x1 : Shape := ⟨2, ![1, 1]⟩

abbrev nBuf : Space → Nat
  | .hbm => 138
  | .vmem => 30
  | .smem => 0
  | _ => 0

abbrev hbmTy0_0 (i : Nat) : BufTy := match i % 128 with
  | 0 => ⟨S100000x128, .f32⟩
  | 1 => ⟨S1600000, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S2x1600000, .i32⟩
  | 11 => ⟨S100000, .i32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x128, .f32⟩
  | 90 => ⟨S1700000x1, .f32⟩
  | 91 => ⟨S1700000x128, .f32⟩
  | 92 => ⟨S1700000x128, .f32⟩
  | 93 => ⟨S_, .f32⟩
  | 94 => ⟨S100000x128, .f32⟩
  | 95 => ⟨S1700000x1, .i32⟩
  | 96 => ⟨S100000x128, .f32⟩
  | 97 => ⟨S1x128, .f32⟩
  | 98 => ⟨S100000x128, .f32⟩
  | 99 => ⟨S100000x128, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x128, .f32⟩
  | 109 => ⟨S1700000x1, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S_, .f32⟩
  | 119 => ⟨S64x128, .f32⟩
  | 120 => ⟨S100000x1, .i32⟩
  | 121 => ⟨S64x128, .f32⟩
  | 122 => ⟨S_, .f32⟩
  | 123 => ⟨S100000, .f32⟩
  | 124 => ⟨S_, .f32⟩
  | 125 => ⟨S64, .f32⟩
  | 126 => ⟨S100000x1, .i32⟩
  | 127 => ⟨S64, .f32⟩
  | _ => ⟨S100000x128, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x128, .f32⟩
  | 5 => ⟨S64x128, .f32⟩
  | 6 => ⟨S64x1, .f32⟩
  | 7 => ⟨S1x1, .f32⟩
  | 8 => ⟨S64x1, .f32⟩
  | 9 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_18 : Ref sig .tc := ⟨.hbm, 122, rfl⟩
abbrev main_v86 : Ref sig .tc := ⟨.hbm, 123, rfl⟩
abbrev main_cst_19 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S1600000, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S2x1600000, .i32⟩
  | 11 => ⟨S100000, .i32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x1, .f32⟩
  | 95 => ⟨S1700000x128, .f32⟩
  | 96 => ⟨S1700000x128, .f32⟩
  | 97 => ⟨S_, .f32⟩
  | 98 => ⟨S100000x128, .f32⟩
  | 99 => ⟨S1700000x1, .i32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S64x128, .f32⟩
  | 4 => ⟨S100000x1, .i32⟩
  | 5 => ⟨S64x128, .f32⟩
  | 6 => ⟨S_, .f32⟩
  | 7 => ⟨S100000, .f32⟩
  | 8 => ⟨S_, .f32⟩
  | 9 => ⟨S64, .f32⟩
  | 10 => ⟨S100000x1, .i32⟩
  | 11 => ⟨S64, .f32⟩
  | 12 => ⟨S_, .f32⟩
  | 13 => ⟨S64, .f32⟩
  | 14 => ⟨S64, .f32⟩
  | 15 => ⟨S64x1, .f32⟩
  | 16 => ⟨S64x128, .f32⟩
  | 17 => ⟨S64x128, .f32⟩
  | 18 => ⟨S64x1, .f32⟩
  | 19 => ⟨S1x1, .f32⟩
  | 20 => ⟨S64x1, .f32⟩
  | 21 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call3_cst : Ref sig .tc := ⟨.hbm, 104, rfl⟩
abbrev main_call3_v0 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call4_cst : Ref sig .tc := ⟨.hbm, 127, rfl⟩
abbrev main_call4_v0 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_cst_19 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KRun.lean ====
/-
  The idealized kernel program's run with its RESULT named: every weakly fair execution of @main terminates,
  nothing faulting, the twelve argument arrays end as launched, and the result array [64, 1] ends holding what the
  last boundary of the program's walk holds there.

  @main is fifteen segments — host stretches and six kernel regions — and the contents of every buffer at each
  segment boundary are a fold from the launch memory: a host stretch applies its operations, a region replaces its
  output array by what its ten blocks write back and leaves every other buffer alone.  The final state agrees with
  the last boundary's contents on every buffer that outlives the kernels' scratch, in particular on the result
  buffer; the arguments walk back through the fold to the launch memory.
-/
import proofs.«178087_j57801669870214_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run : θ_run defs (onTc (τ := τ) (main (F := F))) ⟨m, fun _ => 0, ρ⟩ (fun r => ∀ c : Dev nD,
      r.2.mem ((c.tc : Thread nD τ).loc main_v98) = W15 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v98 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.ResultRun

end
-- ==== Proof.HostChainK.lean ====
/-
  The host-side stages that both programs spell the same way, each named once as a function of the arrays it
  reads (this copy: over the records of `KernelIdeal`).

    * `rowT`, `colT`   the edge list with one self-loop per node appended: sources, targets;
    * `ewT`            the edge weights with weight one on every self-loop;
    * `degT`           the weighted in-degree: weights scatter-added at the targets;
    * `dinvT`          degree^(-1/2) where the degree is positive, zero elsewhere;
    * `normT`          the symmetric normalisation dinv[source] * weight * dinv[target] of every edge;
    * `scatT`          one message pass: rows of the transformed features gathered at the sources (a negative
                       index wrapped by the node count first), scaled by the edge's normalisation, scatter-added
                       at the targets;
    * `tailT`          mean pooling over the graph ids (sums and counts by scatter-add, the count at least one)
                       and the final linear map with its bias.
-/
import proofs.«178087_j57801669870214_2_alg».proof.Proof.Gen.KernelIdeal

noncomputable section

namespace Cert.KernelIdeal.HostChain

open Cert.KernelIdeal Cert.KernelIdeal.Gen Idealize.ShloMosaic

variable {F : FTy → Type} [FloatOps F]

def rowT (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

def colT (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

def ewT (ew : (⟨S1600000, .f32⟩ : BufTy).Contents (Elt F)) : (⟨S1700000, .f32⟩ : BufTy).Contents (Elt F) :=
  concatenate S1700000 0 [⟨S1600000, ew⟩, ⟨S100000, (broadcastInDim S100000 ![] bcast_S_S100000 (constant S_ .f32 0x3F800000#32))⟩] concatenates_S1600000_S100000_S1700000_d0

def degT (ew : (⟨S1600000, .f32⟩ : BufTy).Contents (Elt F)) (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (colT ei)) (ewT ew)

def dinvT (ew : (⟨S1600000, .f32⟩ : BufTy).Contents (Elt F)) (ei : (⟨S2x1600000, .i32⟩ : BufTy).Contents (Elt F)) : (⟨S100000, .f32⟩ : BufTy).Contents (Elt F) :=
  select (cmpf .ogt (degT ew ei) (broadcastInDim S100000 ![] bcast_S_S100000 (constant S_ .f32 0x00000000#32))) (Host.rsqrt (select (cmpf .ogt (degT ew ei) (broadcastInDim S100000 ![] bcast_S_S100000 (constant S_ .f32 0x00000000#32))) (degT ew ei) (broadcastInDim S100000 ![] bcast_S_S100000 (id (constant S_ .f32 0x3F800000#32))))) (broadcastInDim S100000 ![] bcast_S_S100000 (id (constant S_ .f32 0x00000000#32)))

def normT (ew : (⟨S1600000, .f32⟩ : BufTy).Contents (Elt F)) (ei : (⟨S2x1600000, .i32⟩ : BufTy).Contents (Elt F)) : (⟨S1700000, .f32⟩ : BufTy).Contents (Elt F) :=
  mulf (mulf (Host.gather gather_S100000_S1700000x1_S1700000_n_0_n_n_0_1_1 (dinvT ew ei) (broadcastInDim S1700000x1 ![0] bcast_S1700000_S1700000x1_0 (select (cmpi .slt (rowT ei) (broadcastInDim S1700000 ![] bcast_S_S1700000 (constantI S_ 32 0#32))) (addi (rowT ei) (broadcastInDim S1700000 ![] bcast_S_S1700000 (constantI S_ 32 100000#32))) (rowT ei)))) (ewT ew)) (Host.gather gather_S100000_S1700000x1_S1700000_n_0_n_n_0_1_1 (dinvT ew ei) (broadcastInDim S1700000x1 ![0] bcast_S1700000_S1700000x1_0 (select (cmpi .slt (colT ei) (broadcastInDim S1700000 ![] bcast_S_S1700000 (constantI S_ 32 0#32))) (addi (colT ei) (broadcastInDim S1700000 ![] bcast_S_S1700000 (constantI S_ 32 100000#32))) (colT ei))))

def scatT (h2 : (⟨S100000x128, .f32⟩ : BufTy).Contents (Elt F)) (row col : (⟨S1700000, .i32⟩ : BufTy).Contents (Elt F)) (norm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h2 (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) (broadcastInDim S1700000x128 ![0, 1] bcast_S1700000x1_S1700000x128_0_1 (broadcastInDim S1700000x1 ![0] bcast_S1700000_S1700000x1_0 norm)))

def tailT (h : (⟨S100000x128, .f32⟩ : BufTy).Contents (Elt F)) (batch : (⟨S100000, .i32⟩ : BufTy).Contents (Elt F)) (lw : (⟨S128x1, .f32⟩ : BufTy).Contents (Elt F)) (lb : (⟨S1, .f32⟩ : BufTy).Contents (Elt F)) : (⟨S64x1, .f32⟩ : BufTy).Contents (Elt F) :=
  addf (Host.dotGeneral dot_S64x128_S128x1_S64x1_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 batch) h) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))) lw) (broadcastInDim S64x1 ![0, 1] bcast_S1x1_S64x1_0_1 (broadcastInDim S1x1 ![1] bcast_S1_S1x1_1 lb))

end Cert.KernelIdeal.HostChain

end
-- ==== Proof.Spec.lean ====
/-
  The two whole-array functions every layer of the network is made of, at the ideal values (extended reals).

  A graph-convolution layer is: a dense product of the node features [100000, 128] with a weight matrix
  [128, 128]; a gather / scale / scatter-add over the edges (shared, line for line, by the two programs); and
  the bias row added and the negative part clipped.  Only the first and the last are computed differently by
  the two programs (tile by tile inside a kernel on one side, by one host operation on the other), so only
  those two are given a name here:

    * `mm h w`        entry (r, c) is the sum over k < 128 of h (r, k) * w (k, c);
    * `biasRelu s b`  entry (r, c) is max (s (r, c) + b (0, c)) 0, the bias kept as a [1, 128] row.

  Indices are built coordinate by coordinate over the literal extents.
-/
import Idealize.ShloMosaic.PureOps.Ideal
import Idealize.ShloMosaic.Lib.ValueIdx

noncomputable section

namespace Cert.Spec

open Idealize.ShloMosaic

/-- Node features: 100000 nodes, 128 channels. -/
abbrev SN : Shape := ⟨2, ![100000, 128]⟩
/-- A layer's weight matrix. -/
abbrev SW : Shape := ⟨2, ![128, 128]⟩
/-- A layer's bias as a row. -/
abbrev SB : Shape := ⟨2, ![1, 128]⟩

/-- The feature entry a product term reads: row of `i`, channel `k`. -/
abbrev li (i : SN.Idx) (k : Fin 128) : SN.Idx := fun a => match a with
  | ⟨0, _⟩ => ⟨(i 0).val, (i 0).isLt⟩
  | ⟨1, _⟩ => ⟨k.val, k.isLt⟩

/-- The weight entry a product term reads: row `k`, column of `i`. -/
abbrev ri (i : SN.Idx) (k : Fin 128) : SW.Idx := fun a => match a with
  | ⟨0, _⟩ => ⟨k.val, k.isLt⟩
  | ⟨1, _⟩ => ⟨(i 1).val, (i 1).isLt⟩

/-- The bias entry added at `i`: the only row, column of `i`. -/
abbrev bi (i : SN.Idx) : SB.Idx := fun a => match a with
  | ⟨0, _⟩ => ⟨0, Nat.one_pos⟩
  | ⟨1, _⟩ => ⟨(i 1).val, (i 1).isLt⟩

/-- The dense product of the features with a weight matrix: one exact sum of 128 products per entry. -/
def mm (h : FVec Ideal SN .f32) (w : FVec Ideal SW .f32) : FVec Ideal SN .f32 :=
  fun i => ∑ k : Fin 128, h (li i k) * w (ri i k)

/-- The bias row added to every node's row, then the maximum with zero. -/
def biasRelu (s : FVec Ideal SN .f32) (b : FVec Ideal SB .f32) : FVec Ideal SN .f32 :=
  fun i => FloatOps.maximumf (FloatOps.addf (s i) (b (bi i))) (Scalar.ofBits .f32 0x00000000#32)

theorem mm_apply (h : FVec Ideal SN .f32) (w : FVec Ideal SW .f32) (i : SN.Idx) :
    mm h w i = ∑ k : Fin 128, h (li i k) * w (ri i k) := rfl

theorem biasRelu_apply (s : FVec Ideal SN .f32) (b : FVec Ideal SB .f32) (i : SN.Idx) :
    biasRelu s b i = FloatOps.maximumf (FloatOps.addf (s i) (b (bi i))) (Scalar.ofBits .f32 0x00000000#32) := rfl

end Cert.Spec

end
-- ==== Proof.KNet.lean ====
/-
  The network as the idealized kernel program computes it, as one function of the twelve argument arrays.

  A layer: the features times the layer's weights (`mm`: what the ten row blocks of the matmul kernel leave, put
  together), one message pass over the edges on the host, then the bias row added and the negative part clipped
  (`biasRelu`: what the ten row blocks of the bias kernel leave).  Three layers, then the pooling and the final
  linear map on the host.
-/
import proofs.«178087_j57801669870214_2_alg».proof.Proof.HostChainK
import proofs.«178087_j57801669870214_2_alg».proof.Proof.Spec

noncomputable section

namespace Cert.KernelIdeal.Net

open Cert.KernelIdeal Cert.KernelIdeal.Gen Cert.KernelIdeal.HostChain Idealize.ShloMosaic

/-- A layer's bias [128] laid out as the row [1, 128] the bias kernel's window reads. -/
def biasRowT {F : FTy → Type} [FloatOps F] (b : (⟨S128, .f32⟩ : BufTy).Contents (Elt F)) : (⟨S1x128, .f32⟩ : BufTy).Contents (Elt F) :=
  shapeCast _ b shapeCasts_S128_S1x128

/-- One layer as the kernel program computes it. -/
def layerK (h : (⟨S100000x128, .f32⟩ : BufTy).Contents (Elt Ideal)) (w : (⟨S128x128, .f32⟩ : BufTy).Contents (Elt Ideal)) (b : (⟨S128, .f32⟩ : BufTy).Contents (Elt Ideal))
    (ew : (⟨S1600000, .f32⟩ : BufTy).Contents (Elt Ideal)) (ei : (⟨S2x1600000, .i32⟩ : BufTy).Contents (Elt Ideal)) : (⟨S100000x128, .f32⟩ : BufTy).Contents (Elt Ideal) :=
  Cert.Spec.biasRelu (scatT (Cert.Spec.mm h w) (rowT ei) (colT ei) (normT ew ei)) (biasRowT b)

/-- The whole network as the kernel program computes it. -/
def netK (x : (⟨S100000x128, .f32⟩ : BufTy).Contents (Elt Ideal)) (ew : (⟨S1600000, .f32⟩ : BufTy).Contents (Elt Ideal))
    (w1 : (⟨S128x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal))
    (w3 : (⟨S128x128, .f32⟩ : BufTy).Contents (Elt Ideal)) (b3 : (⟨S128, .f32⟩ : BufTy).Contents (Elt Ideal)) (lw : (⟨S128x1, .f32⟩ : BufTy).Contents (Elt Ideal)) (lb : (⟨S1, .f32⟩ : BufTy).Contents (Elt Ideal))
    (ei : (⟨S2x1600000, .i32⟩ : BufTy).Contents (Elt Ideal)) (batch : (⟨S100000, .i32⟩ : BufTy).Contents (Elt Ideal)) : (⟨S64x1, .f32⟩ : BufTy).Contents (Elt Ideal) :=
  tailT (layerK (layerK (layerK x w1 b1 ew ei) w2 b2 ew ei) w3 b3 ew ei) batch lw lb

end Cert.KernelIdeal.Net

end
-- ==== Proof.Walk.lean ====
/-
  Walking the idealized kernel program's buffers from boundary to boundary.

  The program is fifteen segments; `Wk` is what every buffer holds after the k-th.  Three kinds of fact are read
  off the fold, each about ONE buffer at ONE boundary:

    * a buffer no operation of a host stretch writes, and no region has as a window, holds after the segment what
      it held before (the arguments, and the edge list, targets and normalisation computed once before the
      first layer and read again by every layer);
    * a host stretch's result is its operations applied to what the stretch found (one message pass per layer;
      the bias as a row; the pooling and the final linear map);
    * before the first region the edge list with self-loops, its targets, and the symmetric normalisation are
      functions of the two graph arguments alone.

  What a REGION leaves in its output array is not here: it is the region's own value.
-/
import proofs.«178087_j57801669870214_2_alg».proof.Proof.Gen.KernelIdeal.Frame
import proofs.«178087_j57801669870214_2_alg».proof.Proof.KNet
import Idealize.ShloMosaic.Lib.StableHlo.Run

set_option maxRecDepth 16384

noncomputable section

namespace Cert.KernelIdeal.Walk

open Cert.KernelIdeal Cert.KernelIdeal.Gen Cert.KernelIdeal.HostChain Cert.KernelIdeal.Net
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A host stretch leaves a buffer none of its operations writes as it found it: every operation's written
    buffer is another reference. -/
macro "untouched " ops:ident b:ident : tactic =>
  `(tactic| exact StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments, where a later segment reads them -/

/-- Argument `main_arg0` is still the launch array at boundary 5: nothing before it writes that buffer. -/
theorem arg0_at5 (c : Dev nD) : W5 m ρ c (Proc.devRef .tc main_arg0) = m ((c : Thread nD τ).loc main_arg0) :=
  calc W5 m ρ c (Proc.devRef .tc main_arg0)
    _ = W4 m ρ c (Proc.devRef .tc main_arg0) := by untouched hostOps0_4 main_arg0
    _ = W3 m ρ c (Proc.devRef .tc main_arg0) := by untouched hostOps0_3 main_arg0
    _ = W2 m ρ c (Proc.devRef .tc main_arg0) := by untouched hostOps0_2 main_arg0
    _ = W1 m ρ c (Proc.devRef .tc main_arg0) := by untouched hostOps0_1 main_arg0
    _ = W0 m ρ c (Proc.devRef .tc main_arg0) := by untouched hostOps0 main_arg0
    _ = m ((c : Thread nD τ).loc main_arg0) := rfl

/-- Argument `main_arg2` is still the launch array at boundary 5: nothing before it writes that buffer. -/
theorem arg2_at5 (c : Dev nD) : W5 m ρ c (Proc.devRef .tc main_arg2) = m ((c : Thread nD τ).loc main_arg2) :=
  calc W5 m ρ c (Proc.devRef .tc main_arg2)
    _ = W4 m ρ c (Proc.devRef .tc main_arg2) := by untouched hostOps0_4 main_arg2
    _ = W3 m ρ c (Proc.devRef .tc main_arg2) := by untouched hostOps0_3 main_arg2
    _ = W2 m ρ c (Proc.devRef .tc main_arg2) := by untouched hostOps0_2 main_arg2
    _ = W1 m ρ c (Proc.devRef .tc main_arg2) := by untouched hostOps0_1 main_arg2
    _ = W0 m ρ c (Proc.devRef .tc main_arg2) := by untouched hostOps0 main_arg2
    _ = m ((c : Thread nD τ).loc main_arg2) := rfl

/-- Argument `main_arg3` is still the launch array at boundary 6: nothing before it writes that buffer. -/
theorem arg3_at6 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by untouched hostOps0_4 main_arg3
    _ = W3 m ρ c (Proc.devRef .tc main_arg3) := by untouched hostOps0_3 main_arg3
    _ = W2 m ρ c (Proc.devRef .tc main_arg3) := by untouched hostOps0_2 main_arg3
    _ = W1 m ρ c (Proc.devRef .tc main_arg3) := by untouched hostOps0_1 main_arg3
    _ = W0 m ρ c (Proc.devRef .tc main_arg3) := by untouched hostOps0 main_arg3
    _ = m ((c : Thread nD τ).loc main_arg3) := rfl

/-- Argument `main_arg4` is still the launch array at boundary 8: nothing before it writes that buffer. -/
theorem arg4_at8 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by untouched hostOps1 main_arg4
    _ = W5 m ρ c (Proc.devRef .tc main_arg4) := W6_of_ne m ρ c main_arg4 (by decide)
    _ = W4 m ρ c (Proc.devRef .tc main_arg4) := by untouched hostOps0_4 main_arg4
    _ = W3 m ρ c (Proc.devRef .tc main_arg4) := by untouched hostOps0_3 main_arg4
    _ = W2 m ρ c (Proc.devRef .tc main_arg4) := by untouched hostOps0_2 main_arg4
    _ = W1 m ρ c (Proc.devRef .tc main_arg4) := by untouched hostOps0_1 main_arg4
    _ = W0 m ρ c (Proc.devRef .tc main_arg4) := by untouched hostOps0 main_arg4
    _ = m ((c : Thread nD τ).loc main_arg4) := rfl

/-- Argument `main_arg5` is still the launch array at boundary 9: nothing before it writes that buffer. -/
theorem arg5_at9 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by untouched hostOps1 main_arg5
    _ = W5 m ρ c (Proc.devRef .tc main_arg5) := W6_of_ne m ρ c main_arg5 (by decide)
    _ = W4 m ρ c (Proc.devRef .tc main_arg5) := by untouched hostOps0_4 main_arg5
    _ = W3 m ρ c (Proc.devRef .tc main_arg5) := by untouched hostOps0_3 main_arg5
    _ = W2 m ρ c (Proc.devRef .tc main_arg5) := by untouched hostOps0_2 main_arg5
    _ = W1 m ρ c (Proc.devRef .tc main_arg5) := by untouched hostOps0_1 main_arg5
    _ = W0 m ρ c (Proc.devRef .tc main_arg5) := by untouched hostOps0 main_arg5
    _ = m ((c : Thread nD τ).loc main_arg5) := rfl

/-- Argument `main_arg6` is still the launch array at boundary 11: nothing before it writes that buffer. -/
theorem arg6_at11 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := by untouched hostOps3 main_arg6
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by untouched hostOps1 main_arg6
    _ = W5 m ρ c (Proc.devRef .tc main_arg6) := W6_of_ne m ρ c main_arg6 (by decide)
    _ = W4 m ρ c (Proc.devRef .tc main_arg6) := by untouched hostOps0_4 main_arg6
    _ = W3 m ρ c (Proc.devRef .tc main_arg6) := by untouched hostOps0_3 main_arg6
    _ = W2 m ρ c (Proc.devRef .tc main_arg6) := by untouched hostOps0_2 main_arg6
    _ = W1 m ρ c (Proc.devRef .tc main_arg6) := by untouched hostOps0_1 main_arg6
    _ = W0 m ρ c (Proc.devRef .tc main_arg6) := by untouched hostOps0 main_arg6
    _ = m ((c : Thread nD τ).loc main_arg6) := rfl

/-- Argument `main_arg7` is still the launch array at boundary 12: nothing before it writes that buffer. -/
theorem arg7_at12 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := by untouched hostOps3 main_arg7
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by untouched hostOps1 main_arg7
    _ = W5 m ρ c (Proc.devRef .tc main_arg7) := W6_of_ne m ρ c main_arg7 (by decide)
    _ = W4 m ρ c (Proc.devRef .tc main_arg7) := by untouched hostOps0_4 main_arg7
    _ = W3 m ρ c (Proc.devRef .tc main_arg7) := by untouched hostOps0_3 main_arg7
    _ = W2 m ρ c (Proc.devRef .tc main_arg7) := by untouched hostOps0_2 main_arg7
    _ = W1 m ρ c (Proc.devRef .tc main_arg7) := by untouched hostOps0_1 main_arg7
    _ = W0 m ρ c (Proc.devRef .tc main_arg7) := by untouched hostOps0 main_arg7
    _ = m ((c : Thread nD τ).loc main_arg7) := rfl

/-- Argument `main_arg8` is still the launch array at boundary 14: nothing before it writes that buffer. -/
theorem arg8_at14 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := by untouched hostOps5 main_arg8
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := by untouched hostOps3 main_arg8
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by untouched hostOps1 main_arg8
    _ = W5 m ρ c (Proc.devRef .tc main_arg8) := W6_of_ne m ρ c main_arg8 (by decide)
    _ = W4 m ρ c (Proc.devRef .tc main_arg8) := by untouched hostOps0_4 main_arg8
    _ = W3 m ρ c (Proc.devRef .tc main_arg8) := by untouched hostOps0_3 main_arg8
    _ = W2 m ρ c (Proc.devRef .tc main_arg8) := by untouched hostOps0_2 main_arg8
    _ = W1 m ρ c (Proc.devRef .tc main_arg8) := by untouched hostOps0_1 main_arg8
    _ = W0 m ρ c (Proc.devRef .tc main_arg8) := by untouched hostOps0 main_arg8
    _ = m ((c : Thread nD τ).loc main_arg8) := rfl

/-- Argument `main_arg9` is still the launch array at boundary 14: nothing before it writes that buffer. -/
theorem arg9_at14 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := by untouched hostOps5 main_arg9
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := by untouched hostOps3 main_arg9
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := by untouched hostOps1 main_arg9
    _ = W5 m ρ c (Proc.devRef .tc main_arg9) := W6_of_ne m ρ c main_arg9 (by decide)
    _ = W4 m ρ c (Proc.devRef .tc main_arg9) := by untouched hostOps0_4 main_arg9
    _ = W3 m ρ c (Proc.devRef .tc main_arg9) := by untouched hostOps0_3 main_arg9
    _ = W2 m ρ c (Proc.devRef .tc main_arg9) := by untouched hostOps0_2 main_arg9
    _ = W1 m ρ c (Proc.devRef .tc main_arg9) := by untouched hostOps0_1 main_arg9
    _ = W0 m ρ c (Proc.devRef .tc main_arg9) := by untouched hostOps0 main_arg9
    _ = m ((c : Thread nD τ).loc main_arg9) := rfl

/-- Argument `main_arg11` is still the launch array at boundary 14: nothing before it writes that buffer. -/
theorem arg11_at14 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := by untouched hostOps5 main_arg11
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := by untouched hostOps3 main_arg11
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := by untouched hostOps1 main_arg11
    _ = W5 m ρ c (Proc.devRef .tc main_arg11) := W6_of_ne m ρ c main_arg11 (by decide)
    _ = W4 m ρ c (Proc.devRef .tc main_arg11) := by untouched hostOps0_4 main_arg11
    _ = W3 m ρ c (Proc.devRef .tc main_arg11) := by untouched hostOps0_3 main_arg11
    _ = W2 m ρ c (Proc.devRef .tc main_arg11) := by untouched hostOps0_2 main_arg11
    _ = W1 m ρ c (Proc.devRef .tc main_arg11) := by untouched hostOps0_1 main_arg11
    _ = W0 m ρ c (Proc.devRef .tc main_arg11) := by untouched hostOps0 main_arg11
    _ = m ((c : Thread nD τ).loc main_arg11) := rfl

/-! ## The graph data computed before the first layer, where each layer reads it -/

/-- The source list read at boundary 6 is the one computed before the first region. -/
theorem row_at6 (c : Dev nD) : W6 m ρ c (Proc.devRef .tc main_v3) = W5 m ρ c (Proc.devRef .tc main_v3) :=
  calc W6 m ρ c (Proc.devRef .tc main_v3)
    _ = W5 m ρ c (Proc.devRef .tc main_v3) := W6_of_ne m ρ c main_v3 (by decide)

/-- The source list read at boundary 9 is the one computed before the first region. -/
theorem row_at9 (c : Dev nD) : W9 m ρ c (Proc.devRef .tc main_v3) = W5 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by untouched hostOps1 main_v3
    _ = W5 m ρ c (Proc.devRef .tc main_v3) := W6_of_ne m ρ c main_v3 (by decide)

/-- The source list read at boundary 12 is the one computed before the first region. -/
theorem row_at12 (c : Dev nD) : W12 m ρ c (Proc.devRef .tc main_v3) = W5 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by untouched hostOps3 main_v3
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by untouched hostOps1 main_v3
    _ = W5 m ρ c (Proc.devRef .tc main_v3) := W6_of_ne m ρ c main_v3 (by decide)

/-- The target list read at boundary 6 is the one computed before the first region. -/
theorem col_at6 (c : Dev nD) : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

/-- The target list read at boundary 9 is the one computed before the first region. -/
theorem col_at9 (c : Dev nD) : W9 m ρ c (Proc.devRef .tc main_v6) = W5 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by untouched hostOps1 main_v6
    _ = W5 m ρ c (Proc.devRef .tc main_v6) := W6_of_ne m ρ c main_v6 (by decide)

/-- The target list read at boundary 12 is the one computed before the first region. -/
theorem col_at12 (c : Dev nD) : W12 m ρ c (Proc.devRef .tc main_v6) = W5 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := by untouched hostOps3 main_v6
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by untouched hostOps1 main_v6
    _ = W5 m ρ c (Proc.devRef .tc main_v6) := W6_of_ne m ρ c main_v6 (by decide)

/-- The edge normalisation read at boundary 6 is the one computed before the first region. -/
theorem norm_at6 (c : Dev nD) : W6 m ρ c (Proc.devRef .tc main_v34) = W5 m ρ c (Proc.devRef .tc main_v34) :=
  calc W6 m ρ c (Proc.devRef .tc main_v34)
    _ = W5 m ρ c (Proc.devRef .tc main_v34) := W6_of_ne m ρ c main_v34 (by decide)

/-- The edge normalisation read at boundary 9 is the one computed before the first region. -/
theorem norm_at9 (c : Dev nD) : W9 m ρ c (Proc.devRef .tc main_v34) = W5 m ρ c (Proc.devRef .tc main_v34) :=
  calc W9 m ρ c (Proc.devRef .tc main_v34)
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := by untouched hostOps1 main_v34
    _ = W5 m ρ c (Proc.devRef .tc main_v34) := W6_of_ne m ρ c main_v34 (by decide)

/-- The edge normalisation read at boundary 12 is the one computed before the first region. -/
theorem norm_at12 (c : Dev nD) : W12 m ρ c (Proc.devRef .tc main_v34) = W5 m ρ c (Proc.devRef .tc main_v34) :=
  calc W12 m ρ c (Proc.devRef .tc main_v34)
    _ = W11 m ρ c (Proc.devRef .tc main_v34) := W12_of_ne m ρ c main_v34 (by decide)
    _ = W10 m ρ c (Proc.devRef .tc main_v34) := W11_of_ne m ρ c main_v34 (by decide)
    _ = W9 m ρ c (Proc.devRef .tc main_v34) := by untouched hostOps3 main_v34
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := by untouched hostOps1 main_v34
    _ = W5 m ρ c (Proc.devRef .tc main_v34) := W6_of_ne m ρ c main_v34 (by decide)

/-! ## What the host stretches between the regions compute -/

/-- Layer 1's message pass: the transformed features gathered at the sources, scaled by the normalisation, summed at the targets. -/
theorem msg1 (c : Dev nD) :
    W7 m ρ c (Proc.devRef .tc main_v48) = scatT (W6 m ρ c (Proc.devRef .tc main_v35)) (W6 m ρ c (Proc.devRef .tc main_v3)) (W6 m ρ c (Proc.devRef .tc main_v6)) (W6 m ρ c (Proc.devRef .tc main_v34)) := by
  show StableHlo.after hostOps1 (W6 m ρ c) (Proc.devRef .tc main_v48) = _
  generalize W6 m ρ c = X
  dsimp only [hostOps1]
  after_results_simp
  rfl

/-- Layer 1's bias laid out as a row. -/
theorem bias1 (c : Dev nD) :
    W7 m ρ c (Proc.devRef .tc main_v49) = biasRowT (W6 m ρ c (Proc.devRef .tc main_arg3)) := by
  show StableHlo.after hostOps1 (W6 m ρ c) (Proc.devRef .tc main_v49) = _
  generalize W6 m ρ c = X
  dsimp only [hostOps1]
  after_results_simp
  rfl

/-- Layer 2's message pass: the transformed features gathered at the sources, scaled by the normalisation, summed at the targets. -/
theorem msg2 (c : Dev nD) :
    W10 m ρ c (Proc.devRef .tc main_v64) = scatT (W9 m ρ c (Proc.devRef .tc main_v51)) (W9 m ρ c (Proc.devRef .tc main_v3)) (W9 m ρ c (Proc.devRef .tc main_v6)) (W9 m ρ c (Proc.devRef .tc main_v34)) := by
  show StableHlo.after hostOps3 (W9 m ρ c) (Proc.devRef .tc main_v64) = _
  generalize W9 m ρ c = X
  dsimp only [hostOps3]
  after_results_simp
  rfl

/-- Layer 2's bias laid out as a row. -/
theorem bias2 (c : Dev nD) :
    W10 m ρ c (Proc.devRef .tc main_v65) = biasRowT (W9 m ρ c (Proc.devRef .tc main_arg5)) := by
  show StableHlo.after hostOps3 (W9 m ρ c) (Proc.devRef .tc main_v65) = _
  generalize W9 m ρ c = X
  dsimp only [hostOps3]
  after_results_simp
  rfl

/-- Layer 3's message pass: the transformed features gathered at the sources, scaled by the normalisation, summed at the targets. -/
theorem msg3 (c : Dev nD) :
    W13 m ρ c (Proc.devRef .tc main_v80) = scatT (W12 m ρ c (Proc.devRef .tc main_v67)) (W12 m ρ c (Proc.devRef .tc main_v3)) (W12 m ρ c (Proc.devRef .tc main_v6)) (W12 m ρ c (Proc.devRef .tc main_v34)) := by
  show StableHlo.after hostOps5 (W12 m ρ c) (Proc.devRef .tc main_v80) = _
  generalize W12 m ρ c = X
  dsimp only [hostOps5]
  after_results_simp
  rfl

/-- Layer 3's bias laid out as a row. -/
theorem bias3 (c : Dev nD) :
    W13 m ρ c (Proc.devRef .tc main_v81) = biasRowT (W12 m ρ c (Proc.devRef .tc main_arg7)) := by
  show StableHlo.after hostOps5 (W12 m ρ c) (Proc.devRef .tc main_v81) = _
  generalize W12 m ρ c = X
  dsimp only [hostOps5]
  after_results_simp
  rfl

/-- The pooling and the final linear map, of the last layer's output. -/
theorem tail_step (c : Dev nD) :
    W15 m ρ c (Proc.devRef .tc main_v98) = tailT (W14 m ρ c (Proc.devRef .tc main_v82)) (W14 m ρ c (Proc.devRef .tc main_arg11)) (W14 m ρ c (Proc.devRef .tc main_arg8)) (W14 m ρ c (Proc.devRef .tc main_arg9)) := by
  show StableHlo.after hostOps6 (W14 m ρ c) (Proc.devRef .tc main_v98) = _
  generalize W14 m ρ c = X
  dsimp only [hostOps6]
  after_results_simp
  rfl

/-! ## The graph data before the first region, as functions of the two graph arguments -/

/-- The sources: the edge list's first row with one self-loop per node appended. -/
theorem row_at5 (c : Dev nD) :
    W5 m ρ c (Proc.devRef .tc main_v3) = rowT (m ((c : Thread nD τ).loc main_arg10)) := by
  show StableHlo.after hostOps0_4 (StableHlo.after hostOps0_3 (StableHlo.after hostOps0_2 (StableHlo.after hostOps0_1 (StableHlo.after hostOps0 (W0 m ρ c))))) (Proc.devRef .tc main_v3) = rowT (W0 m ρ c (Proc.devRef .tc main_arg10))
  generalize W0 m ρ c = X
  dsimp only [hostOps0, hostOps0_1, hostOps0_2, hostOps0_3, hostOps0_4]
  after_results_simp
  rfl

/-- The targets: the edge list's second row with one self-loop per node appended. -/
theorem col_at5 (c : Dev nD) :
    W5 m ρ c (Proc.devRef .tc main_v6) = colT (m ((c : Thread nD τ).loc main_arg10)) := by
  show StableHlo.after hostOps0_4 (StableHlo.after hostOps0_3 (StableHlo.after hostOps0_2 (StableHlo.after hostOps0_1 (StableHlo.after hostOps0 (W0 m ρ c))))) (Proc.devRef .tc main_v6) = colT (W0 m ρ c (Proc.devRef .tc main_arg10))
  generalize W0 m ρ c = X
  dsimp only [hostOps0, hostOps0_1, hostOps0_2, hostOps0_3, hostOps0_4]
  after_results_simp
  rfl

/-- The symmetric normalisation of every edge, from the edge weights and the edge list. -/
theorem norm_at5 (c : Dev nD) :
    W5 m ρ c (Proc.devRef .tc main_v34) = normT (m ((c : Thread nD τ).loc main_arg1)) (m ((c : Thread nD τ).loc main_arg10)) := by
  show StableHlo.after hostOps0_4 (StableHlo.after hostOps0_3 (StableHlo.after hostOps0_2 (StableHlo.after hostOps0_1 (StableHlo.after hostOps0 (W0 m ρ c))))) (Proc.devRef .tc main_v34) = normT (W0 m ρ c (Proc.devRef .tc main_arg1)) (W0 m ρ c (Proc.devRef .tc main_arg10))
  generalize W0 m ρ c = X
  dsimp only [hostOps0, hostOps0_1, hostOps0_2, hostOps0_3, hostOps0_4]
  after_results_simp
  rfl

end Cert.KernelIdeal.Walk

end
-- ==== Proof.TileMatmul.lean ====
/-
  One row tile of a dense layer: the product of a [10000, 128] tile of the node features with the whole
  [128, 128] weight matrix, read at one entry.

  The tile's body rounds neither operand at the ideal values (the narrowing of both operands to a shorter
  float format is the identity on the extended reals) and accumulates into a zero tile, so entry (r, c) of the result is
  exactly the sum over k < 128 of tile (r, k) * weights (k, c).  The sum that the contraction is defined by
  runs over the one-axis index type of the contracted axis; it is carried to a sum over `Fin 128` along the
  bijection that reads that axis's single coordinate.

  Three of the six kernels are this product (the second and third first pass the tile through a reshape to its
  own shape, which changes nothing).
-/
import proofs.«178087_j57801669870214_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic

/-- Every store and load of a tile starts at its corner. -/
theorem tile_corner_mm : (![0, 0] : Fin 2 → Nat) = fun _ => 0 := funext fun a => by fin_cases a <;> rfl

/-- Inside a tile, the feature entry a product term reads: row of `j`, channel `k`. -/
abbrev tl (j : S10000x128.Idx) (k : Fin 128) : S10000x128.Idx := fun a => match a with
  | ⟨0, _⟩ => ⟨(j 0).val, (j 0).isLt⟩
  | ⟨1, _⟩ => ⟨k.val, k.isLt⟩

/-- The weight entry a product term reads: row `k`, column of `j`. -/
abbrev tr (j : S10000x128.Idx) (k : Fin 128) : S128x128.Idx := fun a => match a with
  | ⟨0, _⟩ => ⟨k.val, k.isLt⟩
  | ⟨1, _⟩ => ⟨(j 1).val, (j 1).isLt⟩

theorem tile_lhs_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem tile_lhs_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem tile_rhs_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem tile_rhs_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile product into a zero accumulator, at an entry: the sum of the 128 products along the channel axis. -/
theorem tile_dot {φ₁ φ₂ : FTy} (x0 : FVec Ideal S10000x128 φ₁) (x1 : FVec Ideal S128x128 φ₂) (j : S10000x128.Idx) :
    FloatOps.matmul dot_S10000x128_S128x128_S10000x128_1_0_0_1_n_n none x0 x1 (constant S10000x128 .f32 0x00000000#32) j
      = ∑ k : Fin 128, x0 (tl j k) * x1 (tr j k) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = tl j k := funext fun a => Fin.ext (by
    match a with
    | ⟨0, _⟩ => exact tile_lhs_0 _ _
    | ⟨1, _⟩ => exact (tile_lhs_1 _ _).trans hk)
  have er : dot_S10000x128_S128x128_S10000x128_1_0_0_1_n_n.rhsIdx j ((ValueIdx.contrEquiv1 dot_S10000x128_S128x128_S10000x128_1_0_0_1_n_n 128 rfl rfl).symm k) = tr j k := funext fun a => Fin.ext (by
    match a with
    | ⟨0, _⟩ => exact (tile_rhs_0 _ _).trans hk
    | ⟨1, _⟩ => exact tile_rhs_1 _ _)
  rw [el, er]

/-- The first layer's product kernel, at an entry of its tile. -/
theorem k0_pay1_apply (x0 : Vec Ideal S10000x128 .f32) (x1 : Vec Ideal S128x128 .f32) (j : S10000x128.Idx) :
    k0_pay1 (F := Ideal) x0 x1 j = ∑ k : Fin 128, x0 (tl j k) * x1 (tr j k) :=
  tile_dot (φ₁ := .bf16) (φ₂ := .bf16) x0 x1 j

/-- The second layer's, whose tile is first reshaped to its own shape. -/
theorem k2_pay1_apply (x0 : Vec Ideal S10000x128 .f32) (x1 : Vec Ideal S128x128 .f32) (j : S10000x128.Idx) :
    k2_pay1 (F := Ideal) x0 x1 j = ∑ k : Fin 128, x0 (tl j k) * x1 (tr j k) := by
  unfold k2_pay1
  rw [shapeCast_self]
  exact tile_dot (φ₁ := .bf16) (φ₂ := .bf16) x0 x1 j

/-- The third layer's, likewise. -/
theorem k4_pay1_apply (x0 : Vec Ideal S10000x128 .f32) (x1 : Vec Ideal S128x128 .f32) (j : S10000x128.Idx) :
    k4_pay1 (F := Ideal) x0 x1 j = ∑ k : Fin 128, x0 (tl j k) * x1 (tr j k) := by
  unfold k4_pay1
  rw [shapeCast_self]
  exact tile_dot (φ₁ := .bf16) (φ₂ := .bf16) x0 x1 j

end Cert.KernelIdeal.RegionValue

end
-- ==== Proof.RegionMM0.lean ====
/-
  The first layer's dense product, computed one row tile at a time, is the whole-array product.

  The node features [100000, 128] are cut into ten tiles of 10000 rows.  At grid point t the kernel reads tile t
  of the features and the whole weight matrix and writes tile t of the result; entry (r, c) of that tile is the sum
  over k < 128 of tile (r, k) * weights (k, c).  Entry (r, c) of tile t is entry (10000 t + r, c) of the array,
  and the weight window never moves, so the tile the kernel writes at point t is tile t of the one function
  "entry (R, c) is the sum over k of features (R, k) * weights (k, c)".  Row R lies in tile R / 10000, so the ten
  tiles cover the array, and after the last write-back the array is that function.
-/
import proofs.«178087_j57801669870214_2_alg».proof.Proof.Gen.KernelIdeal.Frame
import proofs.«178087_j57801669870214_2_alg».proof.Proof.Spec
import proofs.«178087_j57801669870214_2_alg».proof.Proof.TileMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the ten points: the feature tile and the result tile at row block
    `t`, the weight matrix always at its origin (decided over the grid). -/
theorem tiles0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is tile `t` of the whole-array product of the arrays the region finds. -/
theorem tile0_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero tile_corner_mm]
  simp only [View.ld_unit_zero (S := S10000x128) tile_corner_mm, View.ld_unit_zero (S := S128x128) tile_corner_mm]
  obtain ⟨e0, e1, e2, e3, e4, e5⟩ := tiles0 t
  funext j
  show k0_pay1 (iblk0 V c 0 t) (iblk0 V c 1 t) j
    = Cert.Spec.mm (V c main_arg0) (V c main_arg2) (((cfg0.win 2).blk t).view.emb j)
  rw [k0_pay1_apply, Cert.Spec.mm_apply]
  refine Finset.sum_congr rfl fun k _ => ?_
  have h0 : ((cfg0.win 0).blk t).view.emb (tl j k) = Cert.Spec.li (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (tr j k) = Cert.Spec.ri (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have a0 : iblk0 V c 0 t (tl j k) = V c main_arg0 (Cert.Spec.li (((cfg0.win 2).blk t).view.emb j) k) := by
    show V c main_arg0 (((cfg0.win 0).blk t).view.emb (tl j k)) = _
    rw [h0]
  have a1 : iblk0 V c 1 t (tr j k) = V c main_arg2 (Cert.Spec.ri (((cfg0.win 2).blk t).view.emb j) k) := by
    show V c main_arg2 (((cfg0.win 1).blk t).view.emb (tr j k)) = _
    rw [h1]
  rw [a0, a1]

/-- An entry of the array is in point `t`'s result tile iff each coordinate is in the tile's range on its axis. -/
theorem mem_tile0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- Every entry is in some point's tile: row `R` is in tile `R / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have hlt : (i 0).val / 10000 < grid0.N := by omega
  obtain ⟨-, -, -, -, e4, e5⟩ := tiles0 ⟨(i 0).val / 10000, hlt⟩
  refine ⟨⟨(i 0).val / 10000, hlt⟩, flush0_2 _, ?_⟩
  rw [mem_tile0]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    rw [e5]; omega

/-- The array after the region: the whole-array product of the two arrays the region finds. -/
theorem arr0 (c : Dev nD) :
    (dat0 (F := Ideal) V c).arrAt 2 cfg0.N = Cert.Spec.mm (V c main_arg0) (V c main_arg2) :=
  (dat0 V c).arrAt_eq_of_cover 2 (Cert.Spec.mm (V c main_arg0) (V c main_arg2)) (fun t _ => tile0_eq V c t) cover0

end Cert.KernelIdeal.RegionValue

end
-- ==== Proof.TileBias.lean ====
/-
  One row tile of a layer's last step: the bias row added to every row of a [10000, 128] tile, then the maximum
  with zero, read at one entry.

  The body reshapes both operands to their own shapes (which changes nothing), repeats the [1, 128] bias row down
  the tile's 10000 rows, adds, and takes the maximum with a tile filled with the zero word.  So entry (r, c) of
  the result is max (tile (r, c) + bias (0, c)) 0: the only non-pointwise step is the repetition of the row, which
  reads the row's entry in the same column.
-/
import proofs.«178087_j57801669870214_2_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic

/-- Every store and load of a tile starts at its corner. -/
theorem tile_corner_br : (![0, 0] : Fin 2 → Nat) = fun _ => 0 := funext fun a => by fin_cases a <;> rfl

/-- The bias entry added at `j`: the only row, column of `j`. -/
abbrev tb (j : S10000x128.Idx) : S1x128.Idx := fun a => match a with
  | ⟨0, _⟩ => ⟨0, Nat.one_pos⟩
  | ⟨1, _⟩ => ⟨(j 1).val, (j 1).isLt⟩

/-- The bias row repeated down the tile reads, at `j`, the row's entry in `j`'s column. -/
theorem bias_rows_apply {α : Type} (x : S1x128.Idx → α) (j : S10000x128.Idx) :
    broadcastTo S10000x128 x broadcasts_S1x128_S10000x128 j = x (tb j) :=
  broadcastTo_apply x broadcasts_S1x128_S10000x128 j (tb j) (fun a => match a with
    | ⟨0, _⟩ => by show (0 : Nat) = if (1 : Nat) = 1 then 0 else _; rw [if_pos rfl]
    | ⟨1, _⟩ => by show (j 1).val = if (128 : Nat) = 1 then 0 else (j 1).val; rw [if_neg (by decide)])

/-- The first layer's bias-and-clip kernel, at an entry of its tile. -/
theorem k1_pay1_apply (x0 : Vec Ideal S10000x128 .f32) (x1 : Vec Ideal S1x128 .f32) (j : S10000x128.Idx) :
    k1_pay1 (F := Ideal) x0 x1 j
      = FloatOps.maximumf (FloatOps.addf (x0 j) (x1 (tb j))) (Scalar.ofBits .f32 0x00000000#32) := by
  unfold k1_pay1
  rw [shapeCast_self, shapeCast_self]
  exact congrArg (fun z : Ideal .f32 => FloatOps.maximumf (F := Ideal) (FloatOps.addf (F := Ideal) (x0 j) z) (Scalar.ofBits .f32 0x00000000#32)) (bias_rows_apply x1 j)

/-- The second layer's. -/
theorem k3_pay1_apply (x0 : Vec Ideal S10000x128 .f32) (x1 : Vec Ideal S1x128 .f32) (j : S10000x128.Idx) :
    k3_pay1 (F := Ideal) x0 x1 j
      = FloatOps.maximumf (FloatOps.addf (x0 j) (x1 (tb j))) (Scalar.ofBits .f32 0x00000000#32) := by
  unfold k3_pay1
  rw [shapeCast_self, shapeCast_self]
  exact congrArg (fun z : Ideal .f32 => FloatOps.maximumf (F := Ideal) (FloatOps.addf (F := Ideal) (x0 j) z) (Scalar.ofBits .f32 0x00000000#32)) (bias_rows_apply x1 j)

/-- The third layer's. -/
theorem k5_pay1_apply (x0 : Vec Ideal S10000x128 .f32) (x1 : Vec Ideal S1x128 .f32) (j : S10000x128.Idx) :
    k5_pay1 (F := Ideal) x0 x1 j
      = FloatOps.maximumf (FloatOps.addf (x0 j) (x1 (tb j))) (Scalar.ofBits .f32 0x00000000#32) := by
  unfold k5_pay1
  rw [shapeCast_self, shapeCast_self]
  exact congrArg (fun z : Ideal .f32 => FloatOps.maximumf (F := Ideal) (FloatOps.addf (F := Ideal) (x0 j) z) (Scalar.ofBits .f32 0x00000000#32)) (bias_rows_apply x1 j)

end Cert.KernelIdeal.RegionValue

end
-- ==== Proof.RegionBR1.lean ====
/-
  The first layer's last step, computed one row tile at a time, is the whole-array bias-and-clip.

  The [100000, 128] array is cut into ten tiles of 10000 rows.  At grid point t the kernel reads tile t of it and
  the whole [1, 128] bias row and writes tile t of the result; entry (r, c) of that tile is
  max (tile (r, c) + bias (0, c)) 0.  Entry (r, c) of tile t is entry (10000 t + r, c) of the array, and the bias
  window never moves, so the tile the kernel writes at point t is tile t of the one function
  "entry (R, c) is max (array (R, c) + bias (0, c)) 0".  Row R lies in tile R / 10000, so the ten tiles cover the
  array, and after the last write-back the array is that function.
-/
import proofs.«178087_j57801669870214_2_alg».proof.Proof.Gen.KernelIdeal.Frame
import proofs.«178087_j57801669870214_2_alg».proof.Proof.Spec
import proofs.«178087_j57801669870214_2_alg».proof.Proof.TileBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the ten points: the input tile and the result tile at row block
    `t`, the bias row always at its origin (decided over the grid). -/
theorem tiles1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is tile `t` of the whole-array bias-and-clip of the arrays the region finds. -/
theorem tile1_eq (c : Dev nD) (t : Fin cfg1.N) :
    (dat1 (F := Ideal) V c).flushed 2 t
      = ((cfg1.win 2).blk t).view.read (Elt Ideal) (Cert.Spec.biasRelu (V c main_v48) (V c main_v49)) := by
  show (cfg1.win 2).cut (grid1.coords t) ((dat1 V c).after 2 t) = _
  rw [after1_2]
  unfold out1_2
  rw [View.canon_unit_zero tile_corner_br]
  simp only [View.ld_unit_zero (S := S10000x128) tile_corner_br, View.ld_unit_zero (S := S1x128) tile_corner_br]
  obtain ⟨e0, e1, e2, e3, e4, e5⟩ := tiles1 t
  funext j
  show k1_pay1 (iblk1 V c 0 t) (iblk1 V c 1 t) j
    = Cert.Spec.biasRelu (V c main_v48) (V c main_v49) (((cfg1.win 2).blk t).view.emb j)
  rw [k1_pay1_apply, Cert.Spec.biasRelu_apply]
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (tb j) = Cert.Spec.bi (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have a0 : iblk1 V c 0 t j = V c main_v48 (((cfg1.win 2).blk t).view.emb j) := by
    show V c main_v48 (((cfg1.win 0).blk t).view.emb j) = _
    rw [h0]
  have a1 : iblk1 V c 1 t (tb j) = V c main_v49 (Cert.Spec.bi (((cfg1.win 2).blk t).view.emb j)) := by
    show V c main_v49 (((cfg1.win 1).blk t).view.emb (tb j)) = _
    rw [h1]
  rw [a0, a1]

/-- An entry of the array is in point `t`'s result tile iff each coordinate is in the tile's range on its axis. -/
theorem mem_tile1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v50).slice (win1_2.rect t)).set ↔ _
  rw [View.set_slice_whole, Rect.mem_set_unit]
  exact Iff.rfl

/-- Every entry is in some point's tile: row `R` is in tile `R / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  have hlt : (i 0).val / 10000 < grid1.N := by omega
  obtain ⟨-, -, -, -, e4, e5⟩ := tiles1 ⟨(i 0).val / 10000, hlt⟩
  refine ⟨⟨(i 0).val / 10000, hlt⟩, flush1_2 _, ?_⟩
  rw [mem_tile1]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 128 ≤ (i 1).val ∧ (i 1).val < win1_2.index ⟨(i 0).val / 10000, hlt⟩ (1 : Fin 2) * 128 + 128
    rw [e5]; omega

/-- The array after the region: the whole-array bias-and-clip of the two arrays the region finds. -/
theorem arr1 (c : Dev nD) :
    (dat1 (F := Ideal) V c).arrAt 2 cfg1.N = Cert.Spec.biasRelu (V c main_v48) (V c main_v49) :=
  (dat1 V c).arrAt_eq_of_cover 2 (Cert.Spec.biasRelu (V c main_v48) (V c main_v49)) (fun t _ => tile1_eq V c t) cover1

end Cert.KernelIdeal.RegionValue

end
-- ==== Proof.RegionMM2.lean ====
/-
  The second layer's dense product, computed one row tile at a time, is the whole-array product.

  The node features [100000, 128] are cut into ten tiles of 10000 rows.  At grid point t the kernel reads tile t
  of the features and the whole weight matrix and writes tile t of the result; entry (r, c) of that tile is the sum
  over k < 128 of tile (r, k) * weights (k, c).  Entry (r, c) of tile t is entry (10000 t + r, c) of the array,
  and the weight window never moves, so the tile the kernel writes at point t is tile t of the one function
  "entry (R, c) is the sum over k of features (R, k) * weights (k, c)".  Row R lies in tile R / 10000, so the ten
  tiles cover the array, and after the last write-back the array is that function.
-/
import proofs.«178087_j57801669870214_2_alg».proof.Proof.Gen.KernelIdeal.Frame
import proofs.«178087_j57801669870214_2_alg».proof.Proof.Spec
import proofs.«178087_j57801669870214_2_alg».proof.Proof.TileMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the ten points: the feature tile and the result tile at row block
    `t`, the weight matrix always at its origin (decided over the grid). -/
theorem tiles2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is tile `t` of the whole-array product of the arrays the region finds. -/
theorem tile2_eq (c : Dev nD) (t : Fin cfg2.N) :
    (dat2 (F := Ideal) V c).flushed 2 t
      = ((cfg2.win 2).blk t).view.read (Elt Ideal) (Cert.Spec.mm (V c main_v50) (V c main_arg4)) := by
  show (cfg2.win 2).cut (grid2.coords t) ((dat2 V c).after 2 t) = _
  rw [after2_2]
  unfold out2_2
  rw [View.canon_unit_zero tile_corner_mm]
  simp only [View.ld_unit_zero (S := S10000x128) tile_corner_mm, View.ld_unit_zero (S := S128x128) tile_corner_mm]
  obtain ⟨e0, e1, e2, e3, e4, e5⟩ := tiles2 t
  funext j
  show k2_pay1 (iblk2 V c 0 t) (iblk2 V c 1 t) j
    = Cert.Spec.mm (V c main_v50) (V c main_arg4) (((cfg2.win 2).blk t).view.emb j)
  rw [k2_pay1_apply, Cert.Spec.mm_apply]
  refine Finset.sum_congr rfl fun k _ => ?_
  have h0 : ((cfg2.win 0).blk t).view.emb (tl j k) = Cert.Spec.li (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (tr j k) = Cert.Spec.ri (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have a0 : iblk2 V c 0 t (tl j k) = V c main_v50 (Cert.Spec.li (((cfg2.win 2).blk t).view.emb j) k) := by
    show V c main_v50 (((cfg2.win 0).blk t).view.emb (tl j k)) = _
    rw [h0]
  have a1 : iblk2 V c 1 t (tr j k) = V c main_arg4 (Cert.Spec.ri (((cfg2.win 2).blk t).view.emb j) k) := by
    show V c main_arg4 (((cfg2.win 1).blk t).view.emb (tr j k)) = _
    rw [h1]
  rw [a0, a1]

/-- An entry of the array is in point `t`'s result tile iff each coordinate is in the tile's range on its axis. -/
theorem mem_tile2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v51).slice (win2_2.rect t)).set ↔ _
  rw [View.set_slice_whole, Rect.mem_set_unit]
  exact Iff.rfl

/-- Every entry is in some point's tile: row `R` is in tile `R / 10000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  have hlt : (i 0).val / 10000 < grid2.N := by omega
  obtain ⟨-, -, -, -, e4, e5⟩ := tiles2 ⟨(i 0).val / 10000, hlt⟩
  refine ⟨⟨(i 0).val / 10000, hlt⟩, flush2_2 _, ?_⟩
  rw [mem_tile2]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 128 ≤ (i 1).val ∧ (i 1).val < win2_2.index ⟨(i 0).val / 10000, hlt⟩ (1 : Fin 2) * 128 + 128
    rw [e5]; omega

/-- The array after the region: the whole-array product of the two arrays the region finds. -/
theorem arr2 (c : Dev nD) :
    (dat2 (F := Ideal) V c).arrAt 2 cfg2.N = Cert.Spec.mm (V c main_v50) (V c main_arg4) :=
  (dat2 V c).arrAt_eq_of_cover 2 (Cert.Spec.mm (V c main_v50) (V c main_arg4)) (fun t _ => tile2_eq V c t) cover2

end Cert.KernelIdeal.RegionValue

end
-- ==== Proof.RegionBR3.lean ====
/-
  The second layer's last step, computed one row tile at a time, is the whole-array bias-and-clip.

  The [100000, 128] array is cut into ten tiles of 10000 rows.  At grid point t the kernel reads tile t of it and
  the whole [1, 128] bias row and writes tile t of the result; entry (r, c) of that tile is
  max (tile (r, c) + bias (0, c)) 0.  Entry (r, c) of tile t is entry (10000 t + r, c) of the array, and the bias
  window never moves, so the tile the kernel writes at point t is tile t of the one function
  "entry (R, c) is max (array (R, c) + bias (0, c)) 0".  Row R lies in tile R / 10000, so the ten tiles cover the
  array, and after the last write-back the array is that function.
-/
import proofs.«178087_j57801669870214_2_alg».proof.Proof.Gen.KernelIdeal.Frame
import proofs.«178087_j57801669870214_2_alg».proof.Proof.Spec
import proofs.«178087_j57801669870214_2_alg».proof.Proof.TileBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the ten points: the input tile and the result tile at row block
    `t`, the bias row always at its origin (decided over the grid). -/
theorem tiles3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is tile `t` of the whole-array bias-and-clip of the arrays the region finds. -/
theorem tile3_eq (c : Dev nD) (t : Fin cfg3.N) :
    (dat3 (F := Ideal) V c).flushed 2 t
      = ((cfg3.win 2).blk t).view.read (Elt Ideal) (Cert.Spec.biasRelu (V c main_v64) (V c main_v65)) := by
  show (cfg3.win 2).cut (grid3.coords t) ((dat3 V c).after 2 t) = _
  rw [after3_2]
  unfold out3_2
  rw [View.canon_unit_zero tile_corner_br]
  simp only [View.ld_unit_zero (S := S10000x128) tile_corner_br, View.ld_unit_zero (S := S1x128) tile_corner_br]
  obtain ⟨e0, e1, e2, e3, e4, e5⟩ := tiles3 t
  funext j
  show k3_pay1 (iblk3 V c 0 t) (iblk3 V c 1 t) j
    = Cert.Spec.biasRelu (V c main_v64) (V c main_v65) (((cfg3.win 2).blk t).view.emb j)
  rw [k3_pay1_apply, Cert.Spec.biasRelu_apply]
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (tb j) = Cert.Spec.bi (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have a0 : iblk3 V c 0 t j = V c main_v64 (((cfg3.win 2).blk t).view.emb j) := by
    show V c main_v64 (((cfg3.win 0).blk t).view.emb j) = _
    rw [h0]
  have a1 : iblk3 V c 1 t (tb j) = V c main_v65 (Cert.Spec.bi (((cfg3.win 2).blk t).view.emb j)) := by
    show V c main_v65 (((cfg3.win 1).blk t).view.emb (tb j)) = _
    rw [h1]
  rw [a0, a1]

/-- An entry of the array is in point `t`'s result tile iff each coordinate is in the tile's range on its axis. -/
theorem mem_tile3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v66).slice (win3_2.rect t)).set ↔ _
  rw [View.set_slice_whole, Rect.mem_set_unit]
  exact Iff.rfl

/-- Every entry is in some point's tile: row `R` is in tile `R / 10000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  have hlt : (i 0).val / 10000 < grid3.N := by omega
  obtain ⟨-, -, -, -, e4, e5⟩ := tiles3 ⟨(i 0).val / 10000, hlt⟩
  refine ⟨⟨(i 0).val / 10000, hlt⟩, flush3_2 _, ?_⟩
  rw [mem_tile3]
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ (1 : Fin 2) * 128 ≤ (i 1).val ∧ (i 1).val < win3_2.index ⟨(i 0).val / 10000, hlt⟩ (1 : Fin 2) * 128 + 128
    rw [e5]; omega

/-- The array after the region: the whole-array bias-and-clip of the two arrays the region finds. -/
theorem arr3 (c : Dev nD) :
    (dat3 (F := Ideal) V c).arrAt 2 cfg3.N = Cert.Spec.biasRelu (V c main_v64) (V c main_v65) :=
  (dat3 V c).arrAt_eq_of_cover 2 (Cert.Spec.biasRelu (V c main_v64) (V c main_v65)) (fun t _ => tile3_eq V c t) cover3

end Cert.KernelIdeal.RegionValue

end
-- ==== Proof.RegionMM4.lean ====
/-
  The third layer's dense product, computed one row tile at a time, is the whole-array product.

  The node features [100000, 128] are cut into ten tiles of 10000 rows.  At grid point t the kernel reads tile t
  of the features and the whole weight matrix and writes tile t of the result; entry (r, c) of that tile is the sum
  over k < 128 of tile (r, k) * weights (k, c).  Entry (r, c) of tile t is entry (10000 t + r, c) of the array,
  and the weight window never moves, so the tile the kernel writes at point t is tile t of the one function
  "entry (R, c) is the sum over k of features (R, k) * weights (k, c)".  Row R lies in tile R / 10000, so the ten
  tiles cover the array, and after the last write-back the array is that function.
-/
import proofs.«178087_j57801669870214_2_alg».proof.Proof.Gen.KernelIdeal.Frame
import proofs.«178087_j57801669870214_2_alg».proof.Proof.Spec
import proofs.«178087_j57801669870214_2_alg».proof.Proof.TileMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the ten points: the feature tile and the result tile at row block
    `t`, the weight matrix always at its origin (decided over the grid). -/
theorem tiles4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is tile `t` of the whole-array product of the arrays the region finds. -/
theorem tile4_eq (c : Dev nD) (t : Fin cfg4.N) :
    (dat4 (F := Ideal) V c).flushed 2 t
      = ((cfg4.win 2).blk t).view.read (Elt Ideal) (Cert.Spec.mm (V c main_v66) (V c main_arg6)) := by
  show (cfg4.win 2).cut (grid4.coords t) ((dat4 V c).after 2 t) = _
  rw [after4_2]
  unfold out4_2
  rw [View.canon_unit_zero tile_corner_mm]
  simp only [View.ld_unit_zero (S := S10000x128) tile_corner_mm, View.ld_unit_zero (S := S128x128) tile_corner_mm]
  obtain ⟨e0, e1, e2, e3, e4, e5⟩ := tiles4 t
  funext j
  show k4_pay1 (iblk4 V c 0 t) (iblk4 V c 1 t) j
    = Cert.Spec.mm (V c main_v66) (V c main_arg6) (((cfg4.win 2).blk t).view.emb j)
  rw [k4_pay1_apply, Cert.Spec.mm_apply]
  refine Finset.sum_congr rfl fun k _ => ?_
  have h0 : ((cfg4.win 0).blk t).view.emb (tl j k) = Cert.Spec.li (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * k.val = k.val; omega
  have h1 : ((cfg4.win 1).blk t).view.emb (tr j k) = Cert.Spec.ri (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  have a0 : iblk4 V c 0 t (tl j k) = V c main_v66 (Cert.Spec.li (((cfg4.win 2).blk t).view.emb j) k) := by
    show V c main_v66 (((cfg4.win 0).blk t).view.emb (tl j k)) = _
    rw [h0]
  have a1 : iblk4 V c 1 t (tr j k) = V c main_arg6 (Cert.Spec.ri (((cfg4.win 2).blk t).view.emb j) k) := by
    show V c main_arg6 (((cfg4.win 1).blk t).view.emb (tr j k)) = _
    rw [h1]
  rw [a0, a1]

/-- An entry of the array is in point `t`'s result tile iff each coordinate is in the tile's range on its axis. -/
theorem mem_tile4 (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v67).slice (win4_2.rect t)).set ↔ _
  rw [View.set_slice_whole, Rect.mem_set_unit]
  exact Iff.rfl

/-- Every entry is in some point's tile: row `R` is in tile `R / 10000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 10 := N_4
  have hlt : (i 0).val / 10000 < grid4.N := by omega
  obtain ⟨-, -, -, -, e4, e5⟩ := tiles4 ⟨(i 0).val / 10000, hlt⟩
  refine ⟨⟨(i 0).val / 10000, hlt⟩, flush4_2 _, ?_⟩
  rw [mem_tile4]
  intro a
  match a with
  | ⟨0, _⟩ =>
    show win4_2.index ⟨(i 0).val / 10000, hlt⟩ (0 : Fin 2) * 10000 ≤ (i 0).val ∧ (i 0).val < win4_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hlt⟩ (1 : Fin 2) * 128 ≤ (i 1).val ∧ (i 1).val < win4_2.index ⟨(i 0).val / 10000, hlt⟩ (1 : Fin 2) * 128 + 128
    rw [e5]; omega

/-- The array after the region: the whole-array product of the two arrays the region finds. -/
theorem arr4 (c : Dev nD) :
    (dat4 (F := Ideal) V c).arrAt 2 cfg4.N = Cert.Spec.mm (V c main_v66) (V c main_arg6) :=
  (dat4 V c).arrAt_eq_of_cover 2 (Cert.Spec.mm (V c main_v66) (V c main_arg6)) (fun t _ => tile4_eq V c t) cover4

end Cert.KernelIdeal.RegionValue

end
-- ==== Proof.RegionBR5.lean ====
/-
  The third layer's last step, computed one row tile at a time, is the whole-array bias-and-clip.

  The [100000, 128] array is cut into ten tiles of 10000 rows.  At grid point t the kernel reads tile t of it and
  the whole [1, 128] bias row and writes tile t of the result; entry (r, c) of that tile is
  max (tile (r, c) + bias (0, c)) 0.  Entry (r, c) of tile t is entry (10000 t + r, c) of the array, and the bias
  window never moves, so the tile the kernel writes at point t is tile t of the one function
  "entry (R, c) is max (array (R, c) + bias (0, c)) 0".  Row R lies in tile R / 10000, so the ten tiles cover the
  array, and after the last write-back the array is that function.
-/
import proofs.«178087_j57801669870214_2_alg».proof.Proof.Gen.KernelIdeal.Frame
import proofs.«178087_j57801669870214_2_alg».proof.Proof.Spec
import proofs.«178087_j57801669870214_2_alg».proof.Proof.TileBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where each window's block sits at each of the ten points: the input tile and the result tile at row block
    `t`, the bias row always at its origin (decided over the grid). -/
theorem tiles5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is tile `t` of the whole-array bias-and-clip of the arrays the region finds. -/
theorem tile5_eq (c : Dev nD) (t : Fin cfg5.N) :
    (dat5 (F := Ideal) V c).flushed 2 t
      = ((cfg5.win 2).blk t).view.read (Elt Ideal) (Cert.Spec.biasRelu (V c main_v80) (V c main_v81)) := by
  show (cfg5.win 2).cut (grid5.coords t) ((dat5 V c).after 2 t) = _
  rw [after5_2]
  unfold out5_2
  rw [View.canon_unit_zero tile_corner_br]
  simp only [View.ld_unit_zero (S := S10000x128) tile_corner_br, View.ld_unit_zero (S := S1x128) tile_corner_br]
  obtain ⟨e0, e1, e2, e3, e4, e5⟩ := tiles5 t
  funext j
  show k5_pay1 (iblk5 V c 0 t) (iblk5 V c 1 t) j
    = Cert.Spec.biasRelu (V c main_v80) (V c main_v81) (((cfg5.win 2).blk t).view.emb j)
  rw [k5_pay1_apply, Cert.Spec.biasRelu_apply]
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb (tb j) = Cert.Spec.bi (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  have a0 : iblk5 V c 0 t j = V c main_v80 (((cfg5.win 2).blk t).view.emb j) := by
    show V c main_v80 (((cfg5.win 0).blk t).view.emb j) = _
    rw [h0]
  have a1 : iblk5 V c 1 t (tb j) = V c main_v81 (Cert.Spec.bi (((cfg5.win 2).blk t).view.emb j)) := by
    show V c main_v81 (((cfg5.win 1).blk t).view.emb (tb j)) = _
    rw [h1]
  rw [a0, a1]

/-- An entry of the array is in point `t`'s result tile iff each coordinate is in the tile's range on its axis. -/
theorem mem_tile5 (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v82).slice (win5_2.rect t)).set ↔ _
  rw [View.set_slice_whole, Rect.mem_set_unit]
  exact Iff.rfl

/-- Every entry is in some point's tile: row `R` is in tile `R / 10000`. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 10 := N_5
  have hlt : (i 0).val / 10000 < grid5.N := by omega
  obtain ⟨-, -, -, -, e4, e5⟩ := tiles5 ⟨(i 0).val / 10000, hlt⟩
  refine ⟨⟨(i 0).val / 10000, hlt⟩, flush5_2 _, ?_⟩
  rw [mem_tile5]
  intro a
  match a with
  | ⟨0, _⟩ =>
    show win5_2.index ⟨(i 0).val / 10000, hlt⟩ (0 : Fin 2) * 10000 ≤ (i 0).val ∧ (i 0).val < win5_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, hlt⟩ (1 : Fin 2) * 128 ≤ (i 1).val ∧ (i 1).val < win5_2.index ⟨(i 0).val / 10000, hlt⟩ (1 : Fin 2) * 128 + 128
    rw [e5]; omega

/-- The array after the region: the whole-array bias-and-clip of the two arrays the region finds. -/
theorem arr5 (c : Dev nD) :
    (dat5 (F := Ideal) V c).arrAt 2 cfg5.N = Cert.Spec.biasRelu (V c main_v80) (V c main_v81) :=
  (dat5 V c).arrAt_eq_of_cover 2 (Cert.Spec.biasRelu (V c main_v80) (V c main_v81)) (fun t _ => tile5_eq V c t) cover5

end Cert.KernelIdeal.RegionValue

end
-- ==== Proof.KValue.lean ====
/-
  The idealized kernel program's result buffer at the last boundary is the network of the launch arrays.

  A region's output array at its exit boundary is what its ten row blocks leave, which is the specification's
  function of the two arrays the region read at its entry boundary (the region's own value).  Chaining these with
  the host stretches' results and with the buffers that merely survive from boundary to boundary walks the
  result back to the twelve arguments.
-/
import proofs.«178087_j57801669870214_2_alg».proof.Proof.Walk
import proofs.«178087_j57801669870214_2_alg».proof.Proof.RegionMM0
import proofs.«178087_j57801669870214_2_alg».proof.Proof.RegionBR1
import proofs.«178087_j57801669870214_2_alg».proof.Proof.RegionMM2
import proofs.«178087_j57801669870214_2_alg».proof.Proof.RegionBR3
import proofs.«178087_j57801669870214_2_alg».proof.Proof.RegionMM4
import proofs.«178087_j57801669870214_2_alg».proof.Proof.RegionBR5

set_option maxRecDepth 16384

noncomputable section

namespace Cert.KernelIdeal.KValue

open Cert.KernelIdeal Cert.KernelIdeal.Gen Cert.KernelIdeal.HostChain Cert.KernelIdeal.Net
open Idealize.ShloMosaic Idealize.ShloMosaic.TcCoe Idealize.SL.Sem

variable (m : (ℓ : Loc nD τ sig) → Buf (Elt Ideal) ℓ) (ρ : Dev nD → PrngReg)

/-- Region 0 leaves the features times the first layer's weights. -/
theorem reg0 (c : Dev nD) :
    W6 m ρ c (Proc.devRef .tc main_v35) = Cert.Spec.mm (W5 m ρ c (Proc.devRef .tc main_arg0)) (W5 m ρ c (Proc.devRef .tc main_arg2)) :=
  (W6_arr m ρ c 2).trans (Cert.KernelIdeal.RegionValue.arr0 (V5 m ρ) c)

/-- Region 1 leaves the first layer's output. -/
theorem reg1 (c : Dev nD) :
    W8 m ρ c (Proc.devRef .tc main_v50) = Cert.Spec.biasRelu (W7 m ρ c (Proc.devRef .tc main_v48)) (W7 m ρ c (Proc.devRef .tc main_v49)) :=
  (W8_arr m ρ c 2).trans (Cert.KernelIdeal.RegionValue.arr1 (V7 m ρ) c)

/-- Region 2 leaves the first layer's output times the second layer's weights. -/
theorem reg2 (c : Dev nD) :
    W9 m ρ c (Proc.devRef .tc main_v51) = Cert.Spec.mm (W8 m ρ c (Proc.devRef .tc main_v50)) (W8 m ρ c (Proc.devRef .tc main_arg4)) :=
  (W9_arr m ρ c 2).trans (Cert.KernelIdeal.RegionValue.arr2 (V8 m ρ) c)

/-- Region 3 leaves the second layer's output. -/
theorem reg3 (c : Dev nD) :
    W11 m ρ c (Proc.devRef .tc main_v66) = Cert.Spec.biasRelu (W10 m ρ c (Proc.devRef .tc main_v64)) (W10 m ρ c (Proc.devRef .tc main_v65)) :=
  (W11_arr m ρ c 2).trans (Cert.KernelIdeal.RegionValue.arr3 (V10 m ρ) c)

/-- Region 4 leaves the second layer's output times the third layer's weights. -/
theorem reg4 (c : Dev nD) :
    W12 m ρ c (Proc.devRef .tc main_v67) = Cert.Spec.mm (W11 m ρ c (Proc.devRef .tc main_v66)) (W11 m ρ c (Proc.devRef .tc main_arg6)) :=
  (W12_arr m ρ c 2).trans (Cert.KernelIdeal.RegionValue.arr4 (V11 m ρ) c)

/-- Region 5 leaves the third layer's output. -/
theorem reg5 (c : Dev nD) :
    W14 m ρ c (Proc.devRef .tc main_v82) = Cert.Spec.biasRelu (W13 m ρ c (Proc.devRef .tc main_v80)) (W13 m ρ c (Proc.devRef .tc main_v81)) :=
  (W14_arr m ρ c 2).trans (Cert.KernelIdeal.RegionValue.arr5 (V13 m ρ) c)

/-- The result buffer at the last boundary: the network of the twelve launch arrays. -/
theorem result (c : Dev nD) :
    W15 m ρ c (Proc.devRef .tc main_v98)
      = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Walk.tail_step, reg5, Walk.msg3, Walk.bias3, reg4, reg3, Walk.msg2, Walk.bias2, reg2, reg1, Walk.msg1, Walk.bias1, reg0,
    Walk.row_at12, Walk.col_at12, Walk.norm_at12, Walk.row_at9, Walk.col_at9, Walk.norm_at9,
    Walk.row_at6, Walk.col_at6, Walk.norm_at6, Walk.row_at5, Walk.col_at5, Walk.norm_at5,
    Walk.arg0_at5, Walk.arg2_at5, Walk.arg3_at6, Walk.arg4_at8, Walk.arg5_at9, Walk.arg6_at11, Walk.arg7_at12,
    Walk.arg8_at14, Walk.arg9_at14, Walk.arg11_at14]
  rfl

end Cert.KernelIdeal.KValue

end
-- ==== Proof.HostChainR.lean ====
/-
  The host-side stages that both programs spell the same way, each named once as a function of the arrays it
  reads (this copy: over the records of `ReferenceIdeal`).

    * `rowT`, `colT`   the edge list with one self-loop per node appended: sources, targets;
    * `ewT`            the edge weights with weight one on every self-loop;
    * `degT`           the weighted in-degree: weights scatter-added at the targets;
    * `dinvT`          degree^(-1/2) where the degree is positive, zero elsewhere;
    * `normT`          the symmetric normalisation dinv[source] * weight * dinv[target] of every edge;
    * `scatT`          one message pass: rows of the transformed features gathered at the sources (a negative
                       index wrapped by the node count first), scaled by the edge's normalisation, scatter-added
                       at the targets;
    * `tailT`          mean pooling over the graph ids (sums and counts by scatter-add, the count at least one)
                       and the final linear map with its bias.
-/
import proofs.«178087_j57801669870214_2_alg».proof.Proof.Gen.ReferenceIdeal

noncomputable section

namespace Cert.ReferenceIdeal.HostChain

open Cert.ReferenceIdeal Cert.ReferenceIdeal.Gen Idealize.ShloMosaic

variable {F : FTy → Type} [FloatOps F]

def rowT (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

def colT (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

def ewT (ew : (⟨S1600000, .f32⟩ : BufTy).Contents (Elt F)) : (⟨S1700000, .f32⟩ : BufTy).Contents (Elt F) :=
  concatenate S1700000 0 [⟨S1600000, ew⟩, ⟨S100000, (broadcastInDim S100000 ![] bcast_S_S100000 (constant S_ .f32 0x3F800000#32))⟩] concatenates_S1600000_S100000_S1700000_d0

def degT (ew : (⟨S1600000, .f32⟩ : BufTy).Contents (Elt F)) (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (colT ei)) (ewT ew)

def dinvT (ew : (⟨S1600000, .f32⟩ : BufTy).Contents (Elt F)) (ei : (⟨S2x1600000, .i32⟩ : BufTy).Contents (Elt F)) : (⟨S100000, .f32⟩ : BufTy).Contents (Elt F) :=
  select (cmpf .ogt (degT ew ei) (broadcastInDim S100000 ![] bcast_S_S100000 (constant S_ .f32 0x00000000#32))) (Host.rsqrt (select (cmpf .ogt (degT ew ei) (broadcastInDim S100000 ![] bcast_S_S100000 (constant S_ .f32 0x00000000#32))) (degT ew ei) (broadcastInDim S100000 ![] bcast_S_S100000 (id (constant S_ .f32 0x3F800000#32))))) (broadcastInDim S100000 ![] bcast_S_S100000 (id (constant S_ .f32 0x00000000#32)))

def normT (ew : (⟨S1600000, .f32⟩ : BufTy).Contents (Elt F)) (ei : (⟨S2x1600000, .i32⟩ : BufTy).Contents (Elt F)) : (⟨S1700000, .f32⟩ : BufTy).Contents (Elt F) :=
  mulf (mulf (Host.gather gather_S100000_S1700000x1_S1700000_n_0_n_n_0_1_1 (dinvT ew ei) (broadcastInDim S1700000x1 ![0] bcast_S1700000_S1700000x1_0 (select (cmpi .slt (rowT ei) (broadcastInDim S1700000 ![] bcast_S_S1700000 (constantI S_ 32 0#32))) (addi (rowT ei) (broadcastInDim S1700000 ![] bcast_S_S1700000 (constantI S_ 32 100000#32))) (rowT ei)))) (ewT ew)) (Host.gather gather_S100000_S1700000x1_S1700000_n_0_n_n_0_1_1 (dinvT ew ei) (broadcastInDim S1700000x1 ![0] bcast_S1700000_S1700000x1_0 (select (cmpi .slt (colT ei) (broadcastInDim S1700000 ![] bcast_S_S1700000 (constantI S_ 32 0#32))) (addi (colT ei) (broadcastInDim S1700000 ![] bcast_S_S1700000 (constantI S_ 32 100000#32))) (colT ei))))

def scatT (h2 : (⟨S100000x128, .f32⟩ : BufTy).Contents (Elt F)) (row col : (⟨S1700000, .i32⟩ : BufTy).Contents (Elt F)) (norm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h2 (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) (broadcastInDim S1700000x128 ![0, 1] bcast_S1700000x1_S1700000x128_0_1 (broadcastInDim S1700000x1 ![0] bcast_S1700000_S1700000x1_0 norm)))

def tailT (h : (⟨S100000x128, .f32⟩ : BufTy).Contents (Elt F)) (batch : (⟨S100000, .i32⟩ : BufTy).Contents (Elt F)) (lw : (⟨S128x1, .f32⟩ : BufTy).Contents (Elt F)) (lb : (⟨S1, .f32⟩ : BufTy).Contents (Elt F)) : (⟨S64x1, .f32⟩ : BufTy).Contents (Elt F) :=
  addf (Host.dotGeneral dot_S64x128_S128x1_S64x1_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 batch) h) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))) lw) (broadcastInDim S64x1 ![0, 1] bcast_S1x1_S64x1_0_1 (broadcastInDim S1x1 ![1] bcast_S1_S1x1_1 lb))

end Cert.ReferenceIdeal.HostChain

end
-- ==== Proof.RefSide.lean ====
/-
  The reference program's result, read as the network it is.

  The run's composed term is three layers and a tail.  A layer is: the dense product of the features with the
  layer's weights (one host `dot_general`), one message pass over the edges, the bias broadcast over the nodes and
  added, and the maximum with zero.  The tail pools per graph and applies the final linear map.  Written with
  the named host stages the term is `netR`; unfolding the names gives the run's term back.

  At the ideal values two of a layer's steps are the specification's functions:
    * the host's `dot_general` of [100000, 128] by [128, 128] is, entry by entry, the sum over k < 128 of
      h (r, k) * w (k, c): `mm`;
    * adding the bias broadcast along the nodes and taking the maximum with the zero splat is, entry by entry,
      max (s (r, c) + b c) 0: `biasRelu` of any row [1, 128] that holds b.
-/
import proofs.«178087_j57801669870214_2_alg».proof.Proof.Gen.ReferenceIdeal.Read
import proofs.«178087_j57801669870214_2_alg».proof.Proof.HostChainR
import proofs.«178087_j57801669870214_2_alg».proof.Proof.Spec

noncomputable section

namespace Cert.ReferenceIdeal.RefValue

open Cert.ReferenceIdeal Cert.ReferenceIdeal.Gen Cert.ReferenceIdeal.HostChain
open Idealize.ShloMosaic Idealize.ShloMosaic.TcCoe Idealize.SL.Sem

section Net
variable {F : FTy → Type} [FloatOps F]

/-- One layer as the reference computes it. -/
def layerR (h : (⟨S100000x128, .f32⟩ : BufTy).Contents (Elt F)) (w : (⟨S128x128, .f32⟩ : BufTy).Contents (Elt F)) (b : (⟨S128, .f32⟩ : BufTy).Contents (Elt F))
    (ew : (⟨S1600000, .f32⟩ : BufTy).Contents (Elt F)) (ei : (⟨S2x1600000, .i32⟩ : BufTy).Contents (Elt F)) : (⟨S100000x128, .f32⟩ : BufTy).Contents (Elt F) :=
  maximumf (addf (scatT (Host.dotGeneral dot_S100000x128_S128x128_S100000x128_1_0_0_1_n_n none h w) (rowT ei) (colT ei) (normT ew ei))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The whole network as the reference computes it: three layers, then the pooling and the final linear map. -/
def netR (x : (⟨S100000x128, .f32⟩ : BufTy).Contents (Elt F)) (ew : (⟨S1600000, .f32⟩ : BufTy).Contents (Elt F))
    (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) (lw : (⟨S128x1, .f32⟩ : BufTy).Contents (Elt F)) (lb : (⟨S1, .f32⟩ : BufTy).Contents (Elt F))
    (ei : (⟨S2x1600000, .i32⟩ : BufTy).Contents (Elt F)) (batch : (⟨S100000, .i32⟩ : BufTy).Contents (Elt F)) : (⟨S64x1, .f32⟩ : BufTy).Contents (Elt F) :=
  tailT (layerR (layerR (layerR x w1 b1 ew ei) w2 b2 ew ei) w3 b3 ew ei) batch lw lb

set_option maxRecDepth 16384 in
/-- The run's composed term is the network of the launch arrays. -/
theorem res_eq (m : (ℓ : Loc nD τ sig) → Buf (Elt F) ℓ) (c : Dev nD) :
    Cert.ReferenceIdeal.Value.res_main_v104 (F := F) m c
      = netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v104 netR layerR tailT scatT normT dinvT degT ewT rowT colT
  rfl

end Net

/-! ## The two steps that are the specification's, at the ideal values -/

theorem li_eq (i : Cert.Spec.SN.Idx) (k : Fin 128) : Cert.Spec.li i k = Cert.ReferenceIdeal.Read.lidx_main_v35 i k :=
  funext fun a => by match a with | ⟨0, _⟩ => rfl | ⟨1, _⟩ => rfl

theorem ri_eq (i : Cert.Spec.SN.Idx) (k : Fin 128) : Cert.Spec.ri i k = Cert.ReferenceIdeal.Read.ridx_main_v35 i k :=
  funext fun a => by match a with | ⟨0, _⟩ => rfl | ⟨1, _⟩ => rfl

/-- The host's dense product is the specification's: the same 128 products summed, entry by entry. -/
theorem dot_eq_mm (h : FVec Ideal S100000x128 .f32) (w : FVec Ideal S128x128 .f32) :
    Host.dotGeneral dot_S100000x128_S128x128_S100000x128_1_0_0_1_n_n none h w = Cert.Spec.mm h w := by
  funext i
  refine (Cert.ReferenceIdeal.Read.val_main_v35_apply h w i).trans ?_
  rw [Cert.Spec.mm_apply]
  exact Finset.sum_congr rfl fun k _ => by rw [li_eq, ri_eq]

/-- The bias row's only entry in column c, read through the two broadcasts: the bias at c. -/
theorem bias_idx (i : S100000x128.Idx) :
    Cert.ReferenceIdeal.Read.idx_main_v49 (Cert.ReferenceIdeal.Read.idx_main_v50 i) = (fun a => Cert.Spec.bi i a.succ : S128.Idx) :=
  funext fun a => by match a with | ⟨0, _⟩ => rfl

/-- Adding the broadcast bias and clipping at zero is the specification's `biasRelu` of the bias laid out as a row. -/
theorem relu_bias_eq (s : FVec Ideal S100000x128 .f32) (b : FVec Ideal S128 .f32) (hc : S128.ShapeCasts S1x128) :
    maximumf (addf s (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.Spec.biasRelu s (shapeCast S1x128 b hc) := by
  funext i
  show FloatOps.maximumf (FloatOps.addf (s i) (Cert.ReferenceIdeal.Read.val_main_v50 (F := Ideal) b i)) (Cert.ReferenceIdeal.Read.val_main_call2_v0 (F := Ideal) i)
     = FloatOps.maximumf (FloatOps.addf (s i) (shapeCast S1x128 b hc (Cert.Spec.bi i))) (Scalar.ofBits .f32 0x00000000#32)
  rw [Cert.ReferenceIdeal.Read.val_main_v50_apply, Cert.ReferenceIdeal.Read.val_main_v49_apply,
    Cert.ReferenceIdeal.Read.val_main_call2_v0_apply, Cert.ReferenceIdeal.Read.val_main_call2_cst_apply, bias_idx,
    shapeCast_addUnit_apply (![128]) b hc (Cert.Spec.bi i)]

end Cert.ReferenceIdeal.RefValue

end
-- ==== Proof.ChainAgree.lean ====
/-
  The shared host stages are the same functions in the two programs: each is one expression over shapes and
  dimension records that the two printed programs spell identically, so the two copies unfold to one term.
-/
import proofs.«178087_j57801669870214_2_alg».proof.Proof.HostChainK
import proofs.«178087_j57801669870214_2_alg».proof.Proof.HostChainR

noncomputable section

namespace Cert.ChainAgree

open Idealize.ShloMosaic

variable {F : FTy → Type} [FloatOps F]

theorem rowT_eq : @Cert.KernelIdeal.HostChain.rowT F = @Cert.ReferenceIdeal.HostChain.rowT F := rfl
theorem colT_eq : @Cert.KernelIdeal.HostChain.colT F = @Cert.ReferenceIdeal.HostChain.colT F := rfl
theorem ewT_eq : @Cert.KernelIdeal.HostChain.ewT F _ = @Cert.ReferenceIdeal.HostChain.ewT F _ := rfl
theorem degT_eq : @Cert.KernelIdeal.HostChain.degT F _ = @Cert.ReferenceIdeal.HostChain.degT F _ := rfl
theorem dinvT_eq : @Cert.KernelIdeal.HostChain.dinvT F _ = @Cert.ReferenceIdeal.HostChain.dinvT F _ := rfl
theorem normT_eq : @Cert.KernelIdeal.HostChain.normT F _ = @Cert.ReferenceIdeal.HostChain.normT F _ := rfl
theorem scatT_eq : @Cert.KernelIdeal.HostChain.scatT F _ = @Cert.ReferenceIdeal.HostChain.scatT F _ := rfl
theorem tailT_eq : @Cert.KernelIdeal.HostChain.tailT F _ = @Cert.ReferenceIdeal.HostChain.tailT F _ := rfl

end Cert.ChainAgree

end
-- ==== Proof.Bridge.lean ====
/-
  The two programs compute one network.

  Layer by layer: the kernel side's `mm` is the host's dense product, its `biasRelu` of the bias row is the host's
  broadcast-add-and-clip, and the message pass between them is the same host stage in both programs.  The pooling
  and the final linear map are the same host stage too.
-/
import proofs.«178087_j57801669870214_2_alg».proof.Proof.KNet
import proofs.«178087_j57801669870214_2_alg».proof.Proof.RefSide
import proofs.«178087_j57801669870214_2_alg».proof.Proof.ChainAgree

noncomputable section

namespace Cert.Bridge

open Idealize.ShloMosaic
open Cert.KernelIdeal (S100000x128 S128x128 S128 S1600000 S2x1600000 S100000 S128x1 S1 S64x1)

/-- One layer: the kernel program's is the reference's. -/
theorem layer_eq (h : FVec Ideal S100000x128 .f32) (w : FVec Ideal S128x128 .f32) (b : FVec Ideal S128 .f32)
    (ew : FVec Ideal S1600000 .f32) (ei : (⟨S2x1600000, .i32⟩ : BufTy).Contents (Elt Ideal)) :
    Cert.KernelIdeal.Net.layerK h w b ew ei = Cert.ReferenceIdeal.RefValue.layerR (F := Ideal) h w b ew ei := by
  unfold Cert.KernelIdeal.Net.layerK Cert.ReferenceIdeal.RefValue.layerR Cert.KernelIdeal.Net.biasRowT
  rw [Cert.ReferenceIdeal.RefValue.dot_eq_mm,
    Cert.ReferenceIdeal.RefValue.relu_bias_eq _ _ Cert.KernelIdeal.Gen.shapeCasts_S128_S1x128]
  rw [Cert.ChainAgree.scatT_eq, Cert.ChainAgree.rowT_eq, Cert.ChainAgree.colT_eq, Cert.ChainAgree.normT_eq]

/-- The whole network: the kernel program's is the reference's. -/
theorem net_eq (x : FVec Ideal S100000x128 .f32) (ew : FVec Ideal S1600000 .f32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (lw : FVec Ideal S128x1 .f32) (lb : FVec Ideal S1 .f32)
    (ei : (⟨S2x1600000, .i32⟩ : BufTy).Contents (Elt Ideal)) (batch : (⟨S100000, .i32⟩ : BufTy).Contents (Elt Ideal)) :
    Cert.KernelIdeal.Net.netK x ew w1 b1 w2 b2 w3 b3 lw lb ei batch
      = Cert.ReferenceIdeal.RefValue.netR (F := Ideal) x ew w1 b1 w2 b2 w3 b3 lw lb ei batch := by
  unfold Cert.KernelIdeal.Net.netK Cert.ReferenceIdeal.RefValue.netR
  rw [layer_eq, layer_eq, layer_eq, Cert.ChainAgree.tailT_eq]

end Cert.Bridge

end
-- ==== Proof.lean ====
/-
  A three-layer graph convolutional network with mean pooling and a final linear map, computed two ways from the
  same twelve arrays (node features, edge weights, three weight matrices and biases, the final map's weights and
  bias, the edge list, the graph id of every node), and the claim that the two results [64, 1] are equal as
  extended reals.

  Both programs compute the edge list with self-loops, the weighted in-degree, the symmetric normalisation
  d^(-1/2)[source] * weight * d^(-1/2)[target], and per layer the message pass (gather at the sources, scale,
  scatter-add at the targets) by the same host operations.  They differ in two steps per layer: the dense product
  features * weights, which one program computes by a host dot_general and the other in ten row blocks inside a
  matmul kernel (operands rounded to bf16 on the way in, which at the ideal values changes nothing), and the bias
  and clipping, max (s + b) 0, which one computes by a broadcast, an add and a maximum on the host and the other in
  ten row blocks inside a second kernel over the bias laid out as a row.

  The proof: each kernel region's output array is the whole-array function `mm` / `biasRelu` of the arrays it
  read (the ten blocks tile the rows); the kernel program's buffers are walked boundary by boundary from the result
  back to the arguments, which gives its result as the network `netK` of the arguments; the reference run's term is
  the network `netR`; and layer by layer the two networks are one function — a sum of 128 products is the same
  sum, and max (s + b) 0 is the same expression.  No law that would need finiteness is used: the two sides are
  equal term by term, so the precondition is never opened.
-/
import proofs.«178087_j57801669870214_2_alg».proof.Defs
import proofs.«178087_j57801669870214_2_alg».proof.Proof.Gen.Kernel
import proofs.«178087_j57801669870214_2_alg».proof.Proof.Gen.Kernel.Frame
import proofs.«178087_j57801669870214_2_alg».proof.Proof.Gen.KernelIdeal
import proofs.«178087_j57801669870214_2_alg».proof.Proof.Gen.KernelIdeal.Frame
import proofs.«178087_j57801669870214_2_alg».proof.Proof.Gen.ReferenceIdeal
import proofs.«178087_j57801669870214_2_alg».proof.Proof.Gen.Pre_finite_inputs
import proofs.«178087_j57801669870214_2_alg».proof.Proof.Gen.ReferenceIdeal.Run
import proofs.«178087_j57801669870214_2_alg».proof.Proof.Gen.ReferenceIdeal.Read
import proofs.«178087_j57801669870214_2_alg».proof.Proof.KRun
import proofs.«178087_j57801669870214_2_alg».proof.Proof.KValue
import proofs.«178087_j57801669870214_2_alg».proof.Proof.RefSide
import proofs.«178087_j57801669870214_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Gen.frame m ρ

/-- The idealized kernel program runs and leaves its arguments alone. -/
theorem frame_ki : Cert.frame_KernelIdeal := fun m ρ _ => Cert.KernelIdeal.Gen.frame m ρ

/-- The idealized reference runs and leaves its arguments alone: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same [64, 1] array: the network of the
    arguments, as the kernel program computes it. -/
theorem algebraic : Cert.algebraic_KernelIdeal_ReferenceIdeal := by
  intro m ρ m' ρ' _ hagree
  refine ⟨fun c => Cert.KernelIdeal.Net.netK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.result m ρ c), (h c).2⟩)
      (Cert.KernelIdeal.ResultRun.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.RefValue.res_eq, h0, h1, h2, h3, h4, h5, h6, h7, h8, h9, h10, h11]
    exact (Cert.Bridge.net_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
